-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S2x3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S2x3200000 : Shape := ⟨2, ![2, 3200000]⟩
abbrev S1x3200000 : Shape := ⟨2, ![1, 3200000]⟩
abbrev S3200000 : Shape := ⟨1, ![3200000]⟩
abbrev S3x100000 : Shape := ⟨2, ![3, 100000]⟩
abbrev S_ : Shape := ⟨0, ![]⟩
abbrev S3200000x1 : Shape := ⟨2, ![3200000, 1]⟩
abbrev S3x3200000 : Shape := ⟨2, ![3, 3200000]⟩
abbrev S3200000x16 : Shape := ⟨2, ![3200000, 16]⟩
abbrev S3x25600 : Shape := ⟨2, ![3, 25600]⟩
abbrev S25600x16 : Shape := ⟨2, ![25600, 16]⟩
abbrev S1x25600 : Shape := ⟨2, ![1, 25600]⟩
abbrev S25600 : Shape := ⟨1, ![25600]⟩
abbrev S16x25600 : Shape := ⟨2, ![16, 25600]⟩

abbrev nBuf : Space → Nat
  | .hbm => 27
  | .vmem => 4
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S1x3200000, .i32⟩
  | .hbm, ⟨3, _⟩ => ⟨S3200000, .i32⟩
  | .hbm, ⟨4, _⟩ => ⟨S1x3200000, .i32⟩
  | .hbm, ⟨5, _⟩ => ⟨S3200000, .i32⟩
  | .hbm, ⟨6, _⟩ => ⟨S3x100000, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3x3200000, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3x3200000, .f32⟩
  | .hbm, ⟨25, _⟩ => ⟨S3x3200000, .f32⟩
  | .hbm, ⟨26, _⟩ => ⟨S3200000x16, .f32⟩
  | .local _ .vmem, ⟨0, _⟩ => ⟨S3x25600, .f32⟩
  | .local _ .vmem, ⟨1, _⟩ => ⟨S3x25600, .f32⟩
  | .local _ .vmem, ⟨2, _⟩ => ⟨S25600x16, .f32⟩
  | .local _ .vmem, ⟨3, _⟩ => ⟨S25600x16, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25600x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S100000x3_S3x100000_1_0 : S100000x3.Transposes [1, 0] S3x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S3x25600_S1x25600_0_0 : ∀ a, (![0, 0] : Fin 2 → Nat) a + S1x25600.size a ≤ S3x25600.size a
  h_S1x25600 : 0 < S1x25600.numel
  shapeCasts_S1x25600_S25600 : S1x25600.ShapeCasts S25600
  inb_S3x25600_S1x25600_1_0 : ∀ a, (![1, 0] : Fin 2 → Nat) a + S1x25600.size a ≤ S3x25600.size a
  inb_S3x25600_S1x25600_2_0 : ∀ a, (![2, 0] : Fin 2 → Nat) a + S1x25600.size a ≤ S3x25600.size a
  shapeCasts_S25600_S1x25600 : S25600.ShapeCasts S1x25600
  concatenates_S1x25600_S1x25600_S1x25600_S1x25600_S1x25600_S1x25600_S1x25600_S1x25600_S1x25600_S1x25600_S1x25600_S1x25600_S1x25600_S1x25600_S1x25600_S1x25600_S16x25600_d0 : Shape.Concatenates [S1x25600, S1x25600, S1x25600, S1x25600, S1x25600, S1x25600, S1x25600, S1x25600, S1x25600, S1x25600, S1x25600, S1x25600, S1x25600, S1x25600, S1x25600, S1x25600] S16x25600 0
  transposes_S16x25600_p1_0_S25600x16 : S16x25600.Transposes [1, 0] S25600x16
  inb_S25600x16_S25600x16_0_0 : ∀ a, (![0, 0] : Fin 2 → Nat) a + S25600x16.size a ≤ S25600x16.size a
  h_S25600x16 : 0 < S25600x16.numel
  gather_S3x100000_S3200000x1_S3x3200000_0_1_n_n_1_1_31_wf : GatherDims.WF S3x100000 S3200000x1 S3x3200000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x25600.size a ≤ S3x3200000.size a
  hwx0_0 : ∀ i : grid0.Coords, EltTy.bits .f32 = 32 ∨ (Rect.block (s := S3x3200000) S3x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25600x16.size a ≤ S3200000x16.size a
  hwx0_1 : ∀ i : grid0.Coords, EltTy.bits .f32 = 32 ∨ (Rect.block (s := S3200000x16) S25600x16.size (cc0_transform_1 i) (hinb0_1 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf

abbrev win0_0 : Pipeline.Window sig grid0 :=
  Pipeline.Window.ofSpec (Memref.whole main_v19) S3x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S25600x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S3200000x16 : Shape := ⟨2, ![3200000, 16]⟩

abbrev nBuf : Space → Nat
  | .hbm => 178
  | .vmem => 0
  | .smem => 0
  | _ => 0

abbrev hbmTy0_0 (i : Nat) : BufTy := match i % 128 with
  | 0 => ⟨S100000x3, .f32⟩
  | 1 => ⟨S2x3200000, .i32⟩
  | 2 => ⟨S1x3200000, .i32⟩
  | 3 => ⟨S3200000, .i32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x3, .f32⟩
  | 13 => ⟨S1x3200000, .i32⟩
  | 14 => ⟨S3200000, .i32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S3200000x3, .f32⟩
  | 24 => ⟨S3200000x3, .f32⟩
  | 25 => ⟨S3200000x3, .f32⟩
  | 26 => ⟨S_, .f32⟩
  | 27 => ⟨S3200000, .f32⟩
  | 28 => ⟨S3200000x1, .f32⟩
  | 29 => ⟨S3200000x1, .f32⟩
  | 30 => ⟨S_, .f32⟩
  | 31 => ⟨S3200000x1, .f32⟩
  | 32 => ⟨S3200000x1, .f32⟩
  | 33 => ⟨S3200000x3, .f32⟩
  | 34 => ⟨S3200000x3, .f32⟩
  | 35 => ⟨S3200000x1, .f32⟩
  | 36 => ⟨S3200000, .f32⟩
  | 37 => ⟨S3200000x1, .f32⟩
  | 38 => ⟨S3200000, .f32⟩
  | 39 => ⟨S3200000x1, .f32⟩
  | 40 => ⟨S3200000, .f32⟩
  | 41 => ⟨S_, .f32⟩
  | 42 => ⟨S3200000, .f32⟩
  | 43 => ⟨S_, .f32⟩
  | 44 => ⟨S3200000, .f32⟩
  | 45 => ⟨S3200000, .f32⟩
  | 46 => ⟨S3200000, .f32⟩
  | 47 => ⟨S_, .f32⟩
  | 48 => ⟨S3200000, .f32⟩
  | 49 => ⟨S3200000, .f32⟩
  | 50 => ⟨S3200000, .f32⟩
  | 51 => ⟨S3200000, .f32⟩
  | 52 => ⟨S3200000, .f32⟩
  | 53 => ⟨S3200000, .f32⟩
  | 54 => ⟨S3200000, .f32⟩
  | 55 => ⟨S_, .f32⟩
  | 56 => ⟨S3200000, .f32⟩
  | 57 => ⟨S3200000, .f32⟩
  | 58 => ⟨S3200000, .f32⟩
  | 59 => ⟨S_, .f32⟩
  | 60 => ⟨S3200000, .f32⟩
  | 61 => ⟨S3200000, .f32⟩
  | 62 => ⟨S3200000, .f32⟩
  | 63 => ⟨S3200000, .f32⟩
  | 64 => ⟨S3200000, .f32⟩
  | 65 => ⟨S3200000, .f32⟩
  | 66 => ⟨S_, .f32⟩
  | 67 => ⟨S3200000, .f32⟩
  | 68 => ⟨S3200000, .f32⟩
  | 69 => ⟨S3200000, .f32⟩
  | 70 => ⟨S3200000, .f32⟩
  | 71 => ⟨S3200000, .f32⟩
  | 72 => ⟨S_, .f32⟩
  | 73 => ⟨S3200000, .f32⟩
  | 74 => ⟨S3200000, .f32⟩
  | 75 => ⟨S_, .f32⟩
  | 76 => ⟨S3200000, .f32⟩
  | 77 => ⟨S3200000, .f32⟩
  | 78 => ⟨S3200000, .f32⟩
  | 79 => ⟨S_, .f32⟩
  | 80 => ⟨S3200000, .f32⟩
  | 81 => ⟨S3200000, .f32⟩
  | 82 => ⟨S3200000, .f32⟩
  | 83 => ⟨S_, .f32⟩
  | 84 => ⟨S3200000, .f32⟩
  | 85 => ⟨S3200000, .f32⟩
  | 86 => ⟨S3200000, .f32⟩
  | 87 => ⟨S_, .f32⟩
  | 88 => ⟨S3200000, .f32⟩
  | 89 => ⟨S3200000, .f32⟩
  | 90 => ⟨S_, .f32⟩
  | 91 => ⟨S3200000, .f32⟩
  | 92 => ⟨S3200000, .f32⟩
  | 93 => ⟨S_, .f32⟩
  | 94 => ⟨S3200000, .f32⟩
  | 95 => ⟨S3200000, .f32⟩
  | 96 => ⟨S3200000, .f32⟩
  | 97 => ⟨S3200000, .f32⟩
  | 98 => ⟨S_, .f32⟩
  | 99 => ⟨S3200000, .f32⟩
  | 100 => ⟨S3200000, .f32⟩
  | 101 => ⟨S_, .f32⟩
  | 102 => ⟨S3200000, .f32⟩
  | 103 => ⟨S3200000, .f32⟩
  | 104 => ⟨S3200000, .f32⟩
  | 105 => ⟨S3200000, .f32⟩
  | 106 => ⟨S_, .f32⟩
  | 107 => ⟨S3200000, .f32⟩
  | 108 => ⟨S3200000, .f32⟩
  | 109 => ⟨S3200000, .f32⟩
  | 110 => ⟨S3200000, .f32⟩
  | 111 => ⟨S3200000, .f32⟩
  | 112 => ⟨S3200000, .f32⟩
  | 113 => ⟨S_, .f32⟩
  | 114 => ⟨S3200000, .f32⟩
  | 115 => ⟨S3200000, .f32⟩
  | 116 => ⟨S_, .f32⟩
  | 117 => ⟨S3200000, .f32⟩
  | 118 => ⟨S3200000, .f32⟩
  | 119 => ⟨S_, .f32⟩
  | 120 => ⟨S3200000, .f32⟩
  | 121 => ⟨S3200000, .f32⟩
  | 122 => ⟨S_, .f32⟩
  | 123 => ⟨S3200000, .f32⟩
  | 124 => ⟨S3200000, .f32⟩
  | 125 => ⟨S_, .f32⟩
  | 126 => ⟨S3200000, .f32⟩
  | 127 => ⟨S3200000, .f32⟩
  | _ => ⟨S100000x3, .f32⟩

abbrev hbmTy0_1 (i : Nat) : BufTy := match i % 128 with
  | 0 => ⟨S_, .f32⟩
  | 1 => ⟨S3200000, .f32⟩
  | 2 => ⟨S3200000, .f32⟩
  | 3 => ⟨S_, .f32⟩
  | 4 => ⟨S3200000, .f32⟩
  | 5 => ⟨S3200000, .f32⟩
  | 6 => ⟨S_, .f32⟩
  | 7 => ⟨S3200000, .f32⟩
  | 8 => ⟨S3200000, .f32⟩
  | 9 => ⟨S_, .f32⟩
  | 10 => ⟨S3200000, .f32⟩
  | 11 => ⟨S3200000, .f32⟩
  | 12 => ⟨S_, .f32⟩
  | 13 => ⟨S3200000, .f32⟩
  | 14 => ⟨S3200000, .f32⟩
  | 15 => ⟨S_, .f32⟩
  | 16 => ⟨S3200000, .f32⟩
  | 17 => ⟨S3200000, .f32⟩
  | 18 => ⟨S_, .f32⟩
  | 19 => ⟨S3200000, .f32⟩
  | 20 => ⟨S3200000, .f32⟩
  | 21 => ⟨S_, .f32⟩
  | 22 => ⟨S3200000, .f32⟩
  | 23 => ⟨S3200000, .f32⟩
  | 24 => ⟨S_, .f32⟩
  | 25 => ⟨S3200000, .f32⟩
  | 26 => ⟨S3200000, .f32⟩
  | 27 => ⟨S_, .f32⟩
  | 28 => ⟨S3200000, .f32⟩
  | 29 => ⟨S3200000, .f32⟩
  | 30 => ⟨S_, .f32⟩
  | 31 => ⟨S3200000, .f32⟩
  | 32 => ⟨S3200000, .f32⟩
  | 33 => ⟨S3200000x1, .f32⟩
  | 34 => ⟨S3200000x1, .f32⟩
  | 35 => ⟨S3200000x1, .f32⟩
  | 36 => ⟨S3200000x1, .f32⟩
  | 37 => ⟨S3200000x1, .f32⟩
  | 38 => ⟨S3200000x1, .f32⟩
  | 39 => ⟨S3200000x1, .f32⟩
  | 40 => ⟨S3200000x1, .f32⟩
  | 41 => ⟨S3200000x1, .f32⟩
  | 42 => ⟨S3200000x1, .f32⟩
  | 43 => ⟨S3200000x1, .f32⟩
  | 44 => ⟨S3200000x1, .f32⟩
  | 45 => ⟨S3200000x1, .f32⟩
  | 46 => ⟨S3200000x1, .f32⟩
  | 47 => ⟨S3200000x1, .f32⟩
  | 48 => ⟨S3200000x1, .f32⟩
  | 49 => ⟨S3200000x16, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_17 : Ref sig .tc := ⟨.hbm, 98, rfl⟩
abbrev main_v77 : Ref sig .tc := ⟨.hbm, 99, rfl⟩
abbrev main_v78 : Ref sig .tc := ⟨.hbm, 100, rfl⟩
abbrev main_cst_18 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_20 : Ref sig .tc := ⟨.hbm, 113, rfl⟩
abbrev main_v89 : Ref sig .tc := ⟨.hbm, 114, rfl⟩
abbrev main_v90 : Ref sig .tc := ⟨.hbm, 115, rfl⟩
abbrev main_cst_21 : Ref sig .tc := ⟨.hbm, 116, rfl⟩
abbrev main_v91 : Ref sig .tc := ⟨.hbm, 117, rfl⟩
abbrev main_v92 : Ref sig .tc := ⟨.hbm, 118, rfl⟩
abbrev main_cst_22 : Ref sig .tc := ⟨.hbm, 119, rfl⟩
abbrev main_v93 : Ref sig .tc := ⟨.hbm, 120, rfl⟩
abbrev main_v94 : Ref sig .tc := ⟨.hbm, 121, rfl⟩
abbrev main_cst_23 : Ref sig .tc := ⟨.hbm, 122, rfl⟩
abbrev main_v95 : Ref sig .tc := ⟨.hbm, 123, rfl⟩
abbrev main_v96 : Ref sig .tc := ⟨.hbm, 124, rfl⟩
abbrev main_cst_24 : Ref sig .tc := ⟨.hbm, 125, rfl⟩
abbrev main_v97 : Ref sig .tc := ⟨.hbm, 126, rfl⟩
abbrev main_v98 : Ref sig .tc := ⟨.hbm, 127, rfl⟩
abbrev main_cst_25 : Ref sig .tc := ⟨.hbm, 128, rfl⟩
abbrev main_v99 : Ref sig .tc := ⟨.hbm, 129, rfl⟩
abbrev main_v100 : Ref sig .tc := ⟨.hbm, 130, rfl⟩
abbrev main_cst_26 : Ref sig .tc := ⟨.hbm, 131, rfl⟩
abbrev main_v101 : Ref sig .tc := ⟨.hbm, 132, rfl⟩
abbrev main_v102 : Ref sig .tc := ⟨.hbm, 133, rfl⟩
abbrev main_cst_27 : Ref sig .tc := ⟨.hbm, 134, rfl⟩
abbrev main_v103 : Ref sig .tc := ⟨.hbm, 135, rfl⟩
abbrev main_v104 : Ref sig .tc := ⟨.hbm, 136, rfl⟩
abbrev main_cst_28 : Ref sig .tc := ⟨.hbm, 137, rfl⟩
abbrev main_v105 : Ref sig .tc := ⟨.hbm, 138, rfl⟩
abbrev main_v106 : Ref sig .tc := ⟨.hbm, 139, rfl⟩
abbrev main_cst_29 : Ref sig .tc := ⟨.hbm, 140, rfl⟩
abbrev main_v107 : Ref sig .tc := ⟨.hbm, 141, rfl⟩
abbrev main_v108 : Ref sig .tc := ⟨.hbm, 142, rfl⟩
abbrev main_cst_30 : Ref sig .tc := ⟨.hbm, 143, rfl⟩
abbrev main_v109 : Ref sig .tc := ⟨.hbm, 144, rfl⟩
abbrev main_v110 : Ref sig .tc := ⟨.hbm, 145, rfl⟩
abbrev main_cst_31 : Ref sig .tc := ⟨.hbm, 146, rfl⟩
abbrev main_v111 : Ref sig .tc := ⟨.hbm, 147, rfl⟩
abbrev main_v112 : Ref sig .tc := ⟨.hbm, 148, rfl⟩
abbrev main_cst_32 : Ref sig .tc := ⟨.hbm, 149, rfl⟩
abbrev main_v113 : Ref sig .tc := ⟨.hbm, 150, rfl⟩
abbrev main_v114 : Ref sig .tc := ⟨.hbm, 151, rfl⟩
abbrev main_cst_33 : Ref sig .tc := ⟨.hbm, 152, rfl⟩
abbrev main_v115 : Ref sig .tc := ⟨.hbm, 153, rfl⟩
abbrev main_v116 : Ref sig .tc := ⟨.hbm, 154, rfl⟩
abbrev main_cst_34 : Ref sig .tc := ⟨.hbm, 155, rfl⟩
abbrev main_v117 : Ref sig .tc := ⟨.hbm, 156, rfl⟩
abbrev main_v118 : Ref sig .tc := ⟨.hbm, 157, rfl⟩
abbrev main_cst_35 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  reducesTo_S3200000x3_S3200000_d1 : S3200000x3.ReducesTo [1] S3200000
  h_S_ : 0 < S_.numel
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  slices_S3200000x3_S3200000x1_0_0 : S3200000x3.Slices ![0, 0] S3200000x1
  shapeCasts_S3200000x1_S3200000 : S3200000x1.ShapeCasts S3200000
  slices_S3200000x3_S3200000x1_0_1 : S3200000x3.Slices ![0, 1] S3200000x1
  slices_S3200000x3_S3200000x1_0_2 : S3200000x3.Slices ![0, 2] S3200000x1
  concatenates_S3200000x1_S3200000x1_S3200000x1_S3200000x1_S3200000x1_S3200000x1_S3200000x1_S3200000x1_S3200000x1_S3200000x1_S3200000x1_S3200000x1_S3200000x1_S3200000x1_S3200000x1_S3200000x1_S3200000x16_d1 : Shape.Concatenates [S3200000x1, S3200000x1, S3200000x1, S3200000x1, S3200000x1, S3200000x1, S3200000x1, S3200000x1, S3200000x1, S3200000x1, S3200000x1, S3200000x1, S3200000x1, S3200000x1, S3200000x1, S3200000x1] S3200000x16 1
  gather_S100000x3_S3200000x1_S3200000x3_1_0_n_n_0_1_13_wf : GatherDims.WF S100000x3 S3200000x1 S3200000x3 [1] [0] [] [0] [] 1 ![1, 3]

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf

class Facts : Prop extends Facts₀ where

variable [Facts]
-- ==== Proof.ShSpec.lean ====
/-
  THE SPECIFICATION. For an edge vector `(a, b, c)` the result row is the sixteen real spherical harmonics of degree
  0 to 3 of the direction `(a, b, c) / max(|(a, b, c)|, ε)`, in component normalization: degree `l` scaled by the
  single-precision word of `√(2l + 1)`. `feat x y z` is that row as a polynomial of a direction `(x, y, z)`, in the
  association both programs compute it in; every constant is the extended real its word denotes and is never evaluated.

  The two programs normalize differently. One scales each component by the inverse square root of the squared length
  clamped below at `ε²` (`shK`); the other divides each component by the length clamped below at `ε` (`shR`). For real
  components these agree (`shR_eq_shK`): the squared length `r` is a real that is not negative, `ε > 0`, the square
  root is monotone, so `√(max r ε²) = max (√r) (√ε²) = max (√r) ε`, a positive real, and dividing by it is multiplying
  by its reciprocal. `ε` is the word `0x2B8CBCCC`, the dyadic `2305843 / 2⁶¹`, and `ε²` its exact square
  `5316911940649 / 2¹²²`.
-/
import Idealize.ShloMosaic.PureOps.Ideal
import Idealize.ShloMosaic.Lib.ValueIdx

noncomputable section

namespace Cert.Sh

open Idealize.ShloMosaic Idealize.ShloMosaic.ValueIdx

/-- The guard `ε` on the length: the word `0x2B8CBCCC`. -/
def eps : EReal := Ideal.ofBits .f32 0x2B8CBCCC#32

/-- The guard on the squared length: `ε²`, exactly. -/
def epsSq : EReal := ((5316911940649 / 5316911983139663491615228241121378304 : ℝ) : EReal)

/-- The sixteen harmonics of a direction `(x, y, z)`. -/
def feat (x y z : EReal) (k : Fin 16) : EReal :=
  let one := Ideal.ofBits .f32 0x3F800000#32
  let s3 := Ideal.ofBits .f32 0x3FDDB3D7#32
  let s5 := Ideal.ofBits .f32 0x400F1BBD#32
  let s7 := Ideal.ofBits .f32 0x402953FD#32
  let h3 := Ideal.ofBits .f32 0x3F5DB3D7#32
  let c30 := Ideal.ofBits .f32 0x3F69B1E9#32
  let c32 := Ideal.ofBits .f32 0x3F1CC471#32
  let half := Ideal.ofBits .f32 0x3F000000#32
  let two := Ideal.ofBits .f32 0x40000000#32
  let three := Ideal.ofBits .f32 0x40400000#32
  let four := Ideal.ofBits .f32 0x40800000#32
  let sh20 := s3 * x * z
  let sh21 := s3 * x * y
  let y2 := y * y
  let x2z2 := x * x + z * z
  let sh22 := y2 - half * x2z2
  let sh23 := s3 * y * z
  let sh24 := h3 * (z * z - x * x)
  let sh30 := c30 * (sh20 * z + sh24 * x)
  let sh31 := s5 * sh20 * y
  let sh32 := c32 * (four * y2 - x2z2) * x
  let sh33 := half * y * (two * y2 - three * x2z2)
  let sh34 := c32 * z * (four * y2 - x2z2)
  let sh35 := s5 * sh24 * y
  let sh36 := c30 * (sh24 * z - sh20 * x)
  ![one, s3 * x, s3 * y, s3 * z, s5 * sh20, s5 * sh21, s5 * sh22, s5 * sh23, s5 * sh24,
    s7 * sh30, s7 * sh31, s7 * sh32, s7 * sh33, s7 * sh34, s7 * sh35, s7 * sh36] k

/-- The inverse length of `(a, b, c)`, the squared length clamped below at `ε²`. -/
def invLen (a b c : EReal) : EReal := Ideal.rsqrt (max (a * a + b * b + c * c) epsSq)

/-- The row of an edge vector, normalizing by the inverse root of the clamped squared length. -/
def shK (a b c : EReal) (k : Fin 16) : EReal :=
  feat (a * invLen a b c) (b * invLen a b c) (c * invLen a b c) k

/-- The length of `(a, b, c)` clamped below at `ε`, the squares summed from zero. -/
def len (a b c : EReal) : EReal := max (Ideal.sqrt (0 + (a * a + b * b + c * c))) eps

/-- The row of an edge vector, normalizing by division by the clamped length. -/
def shR (a b c : EReal) (k : Fin 16) : EReal :=
  feat (Ideal.div a (len a b c)) (Ideal.div b (len a b c)) (Ideal.div c (len a b c)) k

/-- `ε` is the dyadic `2305843 / 2⁶¹`. -/
theorem eps_eq : eps = ((2305843 / 2305843009213693952 : ℝ) : EReal) := by
  unfold eps
  simp [Ideal.ofBits, Ideal.ieee, -EReal.coe_mul]; norm_num

/-- On reals, scaling a component by the inverse root of the clamped squared length is dividing it by the clamped
    length. -/
theorem scale_eq_div (a b c t : ℝ) : (t : EReal) * invLen a b c = Ideal.div t (len a b c) := by
  have hepos : (0 : ℝ) < 2305843 / 2305843009213693952 := by norm_num
  have hsq : (5316911940649 / 5316911983139663491615228241121378304 : ℝ)
      = (2305843 / 2305843009213693952) * (2305843 / 2305843009213693952) := by norm_num
  have hr0 : 0 ≤ a * a + b * b + c * c :=
    add_nonneg (add_nonneg (mul_self_nonneg a) (mul_self_nonneg b)) (mul_self_nonneg c)
  have hsum : (a : EReal) * a + b * b + c * c = ((a * a + b * b + c * c : ℝ) : EReal) := by
    simp only [EReal.coe_add, EReal.coe_mul]
  have hmaxE : ∀ u v : ℝ, max (u : EReal) (v : EReal) = ((max u v : ℝ) : EReal) := fun u v =>
    (EReal.coe_strictMono.monotone.map_max).symm
  have hroot : Real.sqrt (max (a * a + b * b + c * c) ((2305843 / 2305843009213693952) * (2305843 / 2305843009213693952)))
      = max (Real.sqrt (a * a + b * b + c * c)) (2305843 / 2305843009213693952) := by
    rw [Real.sqrt_monotone.map_max, Real.sqrt_mul_self hepos.le]
  have hdpos : 0 < max (Real.sqrt (a * a + b * b + c * c)) (2305843 / 2305843009213693952) :=
    lt_max_of_lt_right hepos
  have hmpos : 0 < max (a * a + b * b + c * c) ((2305843 / 2305843009213693952) * (2305843 / 2305843009213693952)) :=
    lt_max_of_lt_right (mul_pos hepos hepos)
  unfold invLen len epsSq
  rw [hsum, zero_add, eps_eq, hsq, hmaxE, Ideal.rsqrt_coe, if_neg (not_lt.mpr hmpos.le), if_neg hmpos.ne',
    Ideal.sqrt_coe, if_neg (not_lt.mpr hr0), hmaxE, Ideal.div_coe hdpos.ne', hroot, one_div]

/-- THE LAW: on real edge vectors the two normalizations give the same row. -/
theorem shR_eq_shK (a b c : ℝ) (k : Fin 16) : shR a b c k = shK a b c k := by
  unfold shR shK
  rw [scale_eq_div a b c a, scale_eq_div a b c b, scale_eq_div a b c c]

end Cert.Sh

end
-- ==== Proof.LibConcat16.lean ====
/-
  A CONCATENATION OF SIXTEEN PIECES OF ONE SHAPE, EACH OF EXTENT ONE ALONG THE AXIS, READ AT AN INDEX: a stack of
  sixteen rows (or of sixteen columns). The result at an index whose axis coordinate is `n` is piece `n` at the index
  with the same coordinates off the axis. General over the shapes and the axis: nothing here mentions a program.
  The list of pieces written out is the list `List.ofFn` builds from the pieces as a family over `Fin 16`, to which
  the library's reading of a stack of unit pieces applies.
-/
import Idealize.ShloMosaic.Lib.Pipeline.Value

noncomputable section

namespace Cert.Lib.Concat

open Idealize.ShloMosaic

theorem concatenate16_unit_apply {α : Type} {t s₁ : Shape} (a : Fin t.rank)
    (x0 x1 x2 x3 x4 x5 x6 x7 x8 x9 x10 x11 x12 x13 x14 x15 : s₁.Idx → α)
    (h : Shape.Concatenates (([⟨s₁, x0⟩, ⟨s₁, x1⟩, ⟨s₁, x2⟩, ⟨s₁, x3⟩, ⟨s₁, x4⟩, ⟨s₁, x5⟩, ⟨s₁, x6⟩, ⟨s₁, x7⟩, ⟨s₁, x8⟩, ⟨s₁, x9⟩, ⟨s₁, x10⟩, ⟨s₁, x11⟩, ⟨s₁, x12⟩, ⟨s₁, x13⟩, ⟨s₁, x14⟩, ⟨s₁, x15⟩] : List ((s : Shape) × (s.Idx → α))).map (·.1)) t a)
    (hr : s₁.rank = t.rank) (h1 : s₁.size (a.cast hr.symm) = 1) (j : t.Idx) (n : Fin 16) (hn : (j a).val = n.val)
    (i : s₁.Idx) (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩, ⟨s₁, x6⟩, ⟨s₁, x7⟩, ⟨s₁, x8⟩, ⟨s₁, x9⟩, ⟨s₁, x10⟩, ⟨s₁, x11⟩, ⟨s₁, x12⟩, ⟨s₁, x13⟩, ⟨s₁, x14⟩, ⟨s₁, x15⟩] h j = (![x0, x1, x2, x3, x4, x5, x6, x7, x8, x9, x10, x11, x12, x13, x14, x15] : Fin 16 → (s₁.Idx → α)) n i := by
  have e : ([⟨s₁, x0⟩, ⟨s₁, x1⟩, ⟨s₁, x2⟩, ⟨s₁, x3⟩, ⟨s₁, x4⟩, ⟨s₁, x5⟩, ⟨s₁, x6⟩, ⟨s₁, x7⟩, ⟨s₁, x8⟩, ⟨s₁, x9⟩, ⟨s₁, x10⟩, ⟨s₁, x11⟩, ⟨s₁, x12⟩, ⟨s₁, x13⟩, ⟨s₁, x14⟩, ⟨s₁, x15⟩] : List ((s : Shape) × (s.Idx → α)))
      = List.ofFn fun n : Fin 16 => (⟨s₁, (![x0, x1, x2, x3, x4, x5, x6, x7, x8, x9, x10, x11, x12, x13, x14, x15] : Fin 16 → (s₁.Idx → α)) n⟩ : (s : Shape) × (s.Idx → α)) := by
    rfl
  revert h
  rw [e]
  intro h
  exact concatenate_ofFn_unit_apply a _ h hr h1 j n hn i hi

end Cert.Lib.Concat

end
-- ==== Proof.KernelBody.lean ====
/-
  THE KERNEL BODY AT AN INDEX. The body loads the three rows of its `[3, 25600]` block (the components of 25600 edge
  vectors), computes the sixteen harmonics of each edge as sixteen vectors over the edges, stacks them as the rows of a
  `[16, 25600]` array and stores its transpose. So the stored block at `(p, q)` is harmonic `q` of edge `p`: row `q` of
  the stack at `p`, and every row is a tree of pointwise operations of the three loaded rows at `p`, the tree `shK`
  names, its guard `ε²` the named constant's value.
-/
import proofs.«162112_j49976239456302_2_alg».proof.Proof.Gen.KernelIdeal.Frame
import proofs.«162112_j49976239456302_2_alg».proof.Proof.ShSpec
import proofs.«162112_j49976239456302_2_alg».proof.Proof.LibConcat16
import Idealize.ShloMosaic.Lib.Pipeline.Value
import Idealize.ShloMosaic.Lib.ValueLayout
import Idealize.ShloMosaic.Lib.ValueIdx
import Idealize.ShloMosaic.PureOps.IdealRules

set_option maxRecDepth 16384

noncomputable section

namespace Cert.Sh.Kernel

open Idealize.ShloMosaic Idealize.ShloMosaic.ValueIdx Cert.KernelIdeal Cert.KernelIdeal.Gen Cert.Sh

/-- The named guard denotes `ε²`, by the certificate's table. -/
theorem named_epsSq : Named.named (F := Ideal) Cert.KernelIdeal.κ "eps_sq" (φ := .f32) 0x179ABE15#32 = epsSq :=
  IdealRules.named_const.ideal_named_scalar _ _ _ _ rfl

/-- A loaded `[1, 25600]` row as a vector: at `p` the row at `(0, p)`. -/
theorem row_cast (v : Vec Ideal S1x25600 .f32) (h : S1x25600.ShapeCasts S25600) (p : Fin 25600) :
    shapeCast S25600 v h (ix1 p) = v (ix2 (0 : Fin 1) p) :=
  shapeCast_1a_a_apply v h p

/-- Row `k` of the block, loaded through its rectangle: at `(0, p)` the block at `(k, p)`. -/
theorem ld_row0 (x0 : Vec Ideal S3x25600 .f32) (p : Fin 25600) : View.ld x0 r0_0 (ix2 (0 : Fin 1) p) = x0 (ix2 0 p) :=
  congrArg x0 (funext fun a => Fin.ext (by
    match a with
    | ⟨0, _⟩ => rfl
    | ⟨1, _⟩ => show 0 + 1 * p.val = p.val; omega))
theorem ld_row1 (x0 : Vec Ideal S3x25600 .f32) (p : Fin 25600) : View.ld x0 r0_1 (ix2 (0 : Fin 1) p) = x0 (ix2 1 p) :=
  congrArg x0 (funext fun a => Fin.ext (by
    match a with
    | ⟨0, _⟩ => rfl
    | ⟨1, _⟩ => show 0 + 1 * p.val = p.val; omega))
theorem ld_row2 (x0 : Vec Ideal S3x25600 .f32) (p : Fin 25600) : View.ld x0 r0_2 (ix2 (0 : Fin 1) p) = x0 (ix2 2 p) :=
  congrArg x0 (funext fun a => Fin.ext (by
    match a with
    | ⟨0, _⟩ => rfl
    | ⟨1, _⟩ => show 0 + 1 * p.val = p.val; omega))

/-- THE STORED BLOCK AT `(p, q)`, over any three loaded rows: harmonic `q` of the edge whose components are the rows
    at `p`. -/
theorem body_row (v0 v2 v4 : Vec Ideal S1x25600 .f32) (p : Fin 25600) (q : Fin 16) :
    k0_pay1 (k0_pay9 (F := Ideal)) (k0_pay16 v0 v2 v4) (k0_pay17 v0 v2 v4) (k0_pay18 (k0_pay7 v0 v2 v4) (k0_pay10 v0 v2 v4) (Scalar.ofBits .f32 0x400F1BBD#32)) (k0_pay19 (k0_pay6 v0 v2 v4) (k0_pay12 v0 v2 v4) (k0_pay13 v0 v2 v4)) (k0_pay20 (k0_pay7 v0 v2 v4) (k0_pay12 v0 v2 v4) (k0_pay13 v0 v2 v4)) (k0_pay21 (k0_pay8 v0 v2 v4) (k0_pay12 v0 v2 v4) (k0_pay13 v0 v2 v4)) (k0_pay22 (k0_pay7 v0 v2 v4) (k0_pay16 v0 v2 v4)) (k0_pay23 (k0_pay6 v0 v2 v4) (k0_pay8 v0 v2 v4) (k0_pay10 v0 v2 v4) (k0_pay16 v0 v2 v4)) (k0_pay24 (k0_pay6 v0 v2 v4)) (k0_pay25 (k0_pay7 v0 v2 v4)) (k0_pay26 (k0_pay8 v0 v2 v4)) (k0_pay27 (k0_pay10 v0 v2 v4)) (k0_pay28 (k0_pay11 v0 v2 v4)) (k0_pay29 (k0_pay14 v0 v2 v4)) (mulf (k0_pay30 (F := Ideal)) (k0_pay15 v0 v2 v4)) (ix2 p q)
      = shK (k0_pay2 v0 (ix1 p)) (k0_pay3 v2 (ix1 p)) (k0_pay4 v4 (ix1 p)) q := by
  unfold k0_pay1
  dsimp only
  refine (transpose_ix2_apply _ _ p q).trans ?_
  refine (Cert.Lib.Concat.concatenate16_unit_apply (t := S16x25600) (s₁ := S1x25600) (0 : Fin 2) _ _ _ _ _ _ _ _ _ _ _ _ _ _ _ _ _ rfl rfl (ix2 q p) q rfl
    (ix2 (0 : Fin 1) p) (fun b hb => by
      match b with
      | ⟨0, _⟩ => exact absurd rfl hb
      | ⟨1, _⟩ => rfl)).trans ?_
  match q with
  | ⟨0, _⟩ =>
    simp only [Matrix.cons_val_succ', Matrix.cons_val_zero']
    refine (shapeCast_a_1a_apply _ _ (0 : Fin 1) p).trans ?_
    rfl
  | ⟨1, _⟩ =>
    simp only [Matrix.cons_val_succ', Matrix.cons_val_zero']
    refine (shapeCast_a_1a_apply _ _ (0 : Fin 1) p).trans ?_
    rfl
  | ⟨2, _⟩ =>
    simp only [Matrix.cons_val_succ', Matrix.cons_val_zero']
    refine (shapeCast_a_1a_apply _ _ (0 : Fin 1) p).trans ?_
    rfl
  | ⟨3, _⟩ =>
    simp only [Matrix.cons_val_succ', Matrix.cons_val_zero']
    refine (shapeCast_a_1a_apply _ _ (0 : Fin 1) p).trans ?_
    rfl
  | ⟨4, _⟩ =>
    simp only [Matrix.cons_val_succ', Matrix.cons_val_zero']
    refine (shapeCast_a_1a_apply _ _ (0 : Fin 1) p).trans ?_
    rfl
  | ⟨5, _⟩ =>
    simp only [Matrix.cons_val_succ', Matrix.cons_val_zero']
    refine (shapeCast_a_1a_apply _ _ (0 : Fin 1) p).trans ?_
    rfl
  | ⟨6, _⟩ =>
    simp only [Matrix.cons_val_succ', Matrix.cons_val_zero']
    refine (shapeCast_a_1a_apply _ _ (0 : Fin 1) p).trans ?_
    rfl
  | ⟨7, _⟩ =>
    simp only [Matrix.cons_val_succ', Matrix.cons_val_zero']
    refine (shapeCast_a_1a_apply _ _ (0 : Fin 1) p).trans ?_
    rfl
  | ⟨8, _⟩ =>
    simp only [Matrix.cons_val_succ', Matrix.cons_val_zero']
    refine (shapeCast_a_1a_apply _ _ (0 : Fin 1) p).trans ?_
    rfl
  | ⟨9, _⟩ =>
    simp only [Matrix.cons_val_succ', Matrix.cons_val_zero']
    refine (shapeCast_a_1a_apply _ _ (0 : Fin 1) p).trans ?_
    rfl
  | ⟨10, _⟩ =>
    simp only [Matrix.cons_val_succ', Matrix.cons_val_zero']
    refine (shapeCast_a_1a_apply _ _ (0 : Fin 1) p).trans ?_
    rfl
  | ⟨11, _⟩ =>
    simp only [Matrix.cons_val_succ', Matrix.cons_val_zero']
    refine (shapeCast_a_1a_apply _ _ (0 : Fin 1) p).trans ?_
    rfl
  | ⟨12, _⟩ =>
    simp only [Matrix.cons_val_succ', Matrix.cons_val_zero']
    refine (shapeCast_a_1a_apply _ _ (0 : Fin 1) p).trans ?_
    rfl
  | ⟨13, _⟩ =>
    simp only [Matrix.cons_val_succ', Matrix.cons_val_zero']
    refine (shapeCast_a_1a_apply _ _ (0 : Fin 1) p).trans ?_
    rfl
  | ⟨14, _⟩ =>
    simp only [Matrix.cons_val_succ', Matrix.cons_val_zero']
    refine (shapeCast_a_1a_apply _ _ (0 : Fin 1) p).trans ?_
    rfl
  | ⟨15, _⟩ =>
    simp only [Matrix.cons_val_succ', Matrix.cons_val_zero']
    refine (shapeCast_a_1a_apply _ _ (0 : Fin 1) p).trans ?_
    rfl
  | ⟨n + 16, h⟩ => exact absurd h (by omega)

/-- The store's rectangle is the whole block at zero offsets. -/
theorem hz : (![0, 0] : Fin 2 → Nat) = fun _ => 0 := funext fun a => by fin_cases a <;> rfl

/-- WHAT THE BODY LEAVES IN ITS OUTPUT BLOCK, at `(p, q)`: harmonic `q` of the edge whose components are the input
    block's column `p`. -/
theorem out_row (x0 : Vec Ideal S3x25600 .f32) (p : Fin 25600) (q : Fin 16) :
    out0_1 x0 (ix2 p q) = shK (x0 (ix2 0 p)) (x0 (ix2 1 p)) (x0 (ix2 2 p)) q := by
  unfold out0_1
  rw [View.canon_unit_zero hz]
  refine (body_row (View.ld x0 r0_0) (View.ld x0 r0_1) (View.ld x0 r0_2) p q).trans ?_
  unfold k0_pay2 k0_pay3 k0_pay4
  rw [row_cast, row_cast, row_cast, ld_row0, ld_row1, ld_row2]

end Cert.Sh.Kernel

end
-- ==== Proof.ShEdges.lean ====
/-
  THE RESULT ARRAY AS ONE FUNCTION OF THE ARGUMENTS. `pos` is the `[100000, 3]` table of node positions; `iS` and
  `iR` are the `[3200000, 1]` columns of sender and receiver index words. An index word names the node it reads as a
  signed integer, clamped into the table (`node`). The vector of edge `e` is the sender's position minus the
  receiver's (`edgeVec`), and row `e` of the result is the sixteen harmonics of its direction (`G`).
-/
import proofs.«162112_j49976239456302_2_alg».proof.Proof.ShSpec

noncomputable section

namespace Cert.Sh

open Idealize.ShloMosaic Idealize.ShloMosaic.ValueIdx

/-- The node an index word names: the word read signed, clamped into `[0, 99999]`. -/
def node (w : BitVec 32) : Fin 100000 := ⟨min w.toInt.toNat (100000 - 1), by omega⟩

/-- Component `c` of the vector of edge `e`. -/
def edgeVec (pos : (⟨2, ![100000, 3]⟩ : Shape).Idx → EReal) (iS iR : IVec ⟨2, ![3200000, 1]⟩ 32)
    (e : Fin 3200000) (c : Fin 3) : EReal :=
  pos (ix2 (node (iS (ix2 e 0))) c) - pos (ix2 (node (iR (ix2 e 0))) c)

/-- The result array: row `e` is the harmonics of edge `e`'s direction. -/
def G (pos : (⟨2, ![100000, 3]⟩ : Shape).Idx → EReal) (iS iR : IVec ⟨2, ![3200000, 1]⟩ 32) :
    (⟨2, ![3200000, 16]⟩ : Shape).Idx → EReal :=
  fun i => shK (edgeVec pos iS iR (i 0) 0) (edgeVec pos iS iR (i 0) 1) (edgeVec pos iS iR (i 0) 2) (i 1)

end Cert.Sh

end
-- ==== Proof.LibColGatherDims.lean ====
/-
  THE HOST'S COLUMN GATHER READ AT AN ELEMENT. Indexing the columns of a matrix, `x[:, idx]`, lowers to a gather whose
  operand is `[C, N]`, whose start indices are a column `[R, 1]` and whose result is `[C, R]`: the result's axis 0 is the
  offset axis (it reads the operand's axis 0, kept whole), the operand's axis 1 is collapsed and is the one the start
  index names, and a slice is one whole column `[C, 1]`.

  Element `(c, e)` of the result is the operand at row `c` of the column the index word of `e` names, that word read as
  a signed integer and clamped into `[0, N − 1]`. On the row axis the start is `0` (the map does not name it) and the
  offset is the result's own row; on the column axis the operand coordinate is the clamped start alone (the axis is
  collapsed: no offset). This is the transpose of the row gather `x[idx]` of an `[N, C]` matrix.

  General over the extents `C`, `N`, `R` and the index width: nothing here mentions a program.
-/
import Idealize.ShloMosaic.PureOps.Ideal
import Idealize.ShloMosaic.Lib.ValueIdx

noncomputable section

namespace Cert.Lib.ColGather

open Idealize.ShloMosaic Idealize.ShloMosaic.ValueIdx

/-- The dimension numbers of a gather of whole columns. Their conditions `wf` are decided on a program's literal
    shapes. -/
abbrev colGatherDims (C N R : Nat)
    (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

section ColGather
variable {α : Type} {C N R w : Nat}

/-- THE COLUMN GATHER READ AT `(c, e)`: the operand at row `c` and column `idx[e, 0]`, read signed and clamped into
    `[0, N − 1]`. -/
theorem gather_cols_apply (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (c : Fin C) (e : Fin R) :
    Host.gather (colGatherDims C N R wf) x idx (ix2 c e)
      = x (ix2 c ⟨min (idx (ix2 e 0)).toInt.toNat (N - 1), by omega⟩) := by
  unfold Host.gather
  congr 1
  funext a
  refine Fin.ext ?_
  match a with
  | ⟨0, _⟩ =>
    show (colGatherDims C N R wf).start (ix2 c e) idx 0 + (colGatherDims C N R wf).batchCoord (ix2 c e) 0
      + (colGatherDims C N R wf).offCoord (ix2 c e) 0 = c.val
    rw [GatherDims.batchCoord_eq_zero _ _ _ List.not_mem_nil]
    have hs : (colGatherDims C N R wf).start (ix2 c e) idx 0 = 0 := by
      unfold GatherDims.start
      rw [dif_neg (show (0 : Fin 2) ∉ ([1] : List (Fin 2)) by decide)]
    have hk : (0 : Fin 2) ∈ (colGatherDims C N R wf).sKept := by
      show (0 : Fin 2) ∈ (List.finRange 2).filter (· ∉ (([1] : List (Fin 2)) ++ []))
      decide
    have ho : (colGatherDims C N R wf).offCoord (ix2 c e) 0 = c.val := by
      unfold GatherDims.offCoord
      rw [dif_pos hk]
      rfl
    rw [hs, ho]
    omega
  | ⟨1, _⟩ =>
    show (colGatherDims C N R wf).start (ix2 c e) idx 1 + (colGatherDims C N R wf).batchCoord (ix2 c e) 1
      + (colGatherDims C N R wf).offCoord (ix2 c e) 1 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims C N R wf).startIndexMap from List.mem_singleton.mpr rfl)]
    have hsi : (colGatherDims C N R wf).siIdx (ix2 c e) ⟨List.idxOf (1 : Fin 2) (colGatherDims C N R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- A gather's dimension numbers are determined by their seven data fields: a record over the column-gather shapes
    with the column numbers IS the column gather's record (the remaining field is a proof). -/
theorem eq_colGatherDims (d : GatherDims ⟨2, ![C, N]⟩ ⟨2, ![R, 1]⟩ ⟨2, ![C, R]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![C, 1]) : ∃ wf, d = colGatherDims C N R wf := by
  obtain ⟨o, cs, ob, sb, sm, iv, ss, wf⟩ := d
  dsimp only at h1 h2 h3 h4 h5 h6 h7
  subst h1 h2 h3 h4 h5 h6 h7
  exact ⟨wf, rfl⟩

/-- THE HOST'S COLUMN GATHER OF ANY RECORD WITH THE COLUMN NUMBERS, READ AT `(c, e)`. -/
theorem hostGather_cols_apply (hN : 0 < N)
    (d : GatherDims ⟨2, ![C, N]⟩ ⟨2, ![R, 1]⟩ ⟨2, ![C, R]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![C, 1])
    (x : (⟨2, ![C, N]⟩ : Shape).Idx → α) (idx : IVec ⟨2, ![R, 1]⟩ w) (c : Fin C) (e : Fin R) :
    Host.gather d x idx (ix2 c e)
      = x (ix2 c ⟨min (idx (ix2 e 0)).toInt.toNat (N - 1), by omega⟩) := by
  obtain ⟨wf, rfl⟩ := eq_colGatherDims d h1 h2 h3 h4 h5 h6 h7
  exact gather_cols_apply hN wf x idx c e

end ColGather

end Cert.Lib.ColGather

end
-- ==== Proof.KernelValue.lean ====
/-
  THE KERNEL'S RESULT ARRAY. Before the region the host slices the two rows of the index argument, wraps negative
  words, transposes the position table to `[3, N]` and gathers its columns, so the region finds in its input array
  the edge vectors component by component: entry `(k, e)` is component `k` of the vector of edge `e`. Grid point `t`
  reads columns `25600 t … 25600 t + 25599` of that array and writes rows `25600 t … 25600 t + 25599` of the result;
  what it writes at `(p, q)` is harmonic `q` of the edge in column `p` of its input block, that is, of edge
  `25600 t + p`. So every point writes its block of the one array `G`, the 125 blocks cover the `[3200000, 16]` result,
  and the result array after the run is `G`.
-/
import proofs.«162112_j49976239456302_2_alg».proof.Proof.Gen.KernelIdeal.Value
import proofs.«162112_j49976239456302_2_alg».proof.Proof.KernelBody
import proofs.«162112_j49976239456302_2_alg».proof.Proof.ShEdges
import proofs.«162112_j49976239456302_2_alg».proof.Proof.LibColGatherDims
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.Sh.Kernel

open Idealize.ShloMosaic Idealize.ShloMosaic.TcCoe Idealize.SL.Sem Idealize.ShloMosaic.ValueIdx
open Cert.KernelIdeal Cert.KernelIdeal.Gen Cert.KernelIdeal.Value Cert.Sh
open Idealize.ShloMosaic.Pipeline (Dat)

/-- An index vector as the gather's column of start indices: a negative word has the table's extent added first. -/
def idxCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The senders' column: row 0 of the index argument. -/
def sendIdx (a1 : IVec S2x3200000 32) : IVec S3200000x1 32 :=
  idxCol (shapeCast S3200000 (extractStridedSlice S1x3200000 ![0, 0] a1 slices_S2x3200000_S1x3200000_0_0) shapeCasts_S1x3200000_S3200000)

/-- The receivers' column: row 1 of the index argument. -/
def recvIdx (a1 : IVec S2x3200000 32) : IVec S3200000x1 32 :=
  idxCol (shapeCast S3200000 (extractStridedSlice S1x3200000 ![1, 0] a1 slices_S2x3200000_S1x3200000_1_0) shapeCasts_S1x3200000_S3200000)

variable (m : (ℓ : Loc nD τ sig) → Buf (Elt Ideal) ℓ) (ρ : Dev nD → PrngReg)

/-- The position table and the index argument as launched. -/
abbrev posOf (c : Dev nD) : S100000x3.Idx → EReal := m ((c : Thread nD τ).loc main_arg0)
abbrev idxOf (c : Dev nD) : IVec S2x3200000 32 := m ((c : Thread nD τ).loc main_arg1)

set_option maxHeartbeats 4000000 in
/-- The region's input array: the gathered sender columns of the transposed table minus the receiver columns. -/
theorem V_v19 (c : Dev nD) : @Eq (FVec Ideal S3x3200000 .f32) (V m c main_v19)
    (subf (Host.gather gather_S3x100000_S3200000x1_S3x3200000_0_1_n_n_1_1_31
        (transpose S3x100000 [1, 0] (posOf m c) transposes_S100000x3_S3x100000_1_0) (sendIdx (idxOf m c)))
      (Host.gather gather_S3x100000_S3200000x1_S3x3200000_0_1_n_n_1_1_31
        (transpose S3x100000 [1, 0] (posOf m c) transposes_S100000x3_S3x100000_1_0) (recvIdx (idxOf m c)))) := by
  dsimp only [Gen.V, Gen.hostOps0]
  after_results_simp
  rfl

/-- Entry `(k, e)` of the region's input array is component `k` of the vector of edge `e`. -/
theorem vecT_apply (c : Dev nD) (k : Fin 3) (e : Fin 3200000) :
    (V m c main_v19 : S3x3200000.Idx → EReal) (ix2 k e)
      = edgeVec (posOf m c) (sendIdx (idxOf m c)) (recvIdx (idxOf m c)) e k := by
  rw [V_v19, subf_apply,
    Cert.Lib.ColGather.hostGather_cols_apply (by norm_num) _ rfl rfl rfl rfl rfl rfl rfl,
    Cert.Lib.ColGather.hostGather_cols_apply (by norm_num) _ rfl rfl rfl rfl rfl rfl rfl,
    transpose_ix2_apply, transpose_ix2_apply]
  rfl

/-- The array `G` of the arguments as launched. -/
abbrev GK (c : Dev nD) : S3200000x16.Idx → EReal :=
  G (posOf m c) (sendIdx (idxOf m c)) (recvIdx (idxOf m c))

/-- ONE BLOCK, over plain variables: if column `y 0` of an input block holds the vector of the edge that array index
    `i` names, and `i` and `y` agree on the harmonic, the body's output block at `y` is `G` at `i`. -/
theorem block_at (pos : S100000x3.Idx → EReal) (iS iR : IVec S3200000x1 32) (x0 : Vec Ideal S3x25600 .f32)
    (y : S25600x16.Idx) (i : S3200000x16.Idx)
    (hx : ∀ k : Fin 3, x0 (ix2 k (y 0)) = edgeVec pos iS iR (i 0) k) (h1 : i 1 = y 1) :
    out0_1 x0 y = G pos iS iR i := by
  obtain ⟨p, q, rfl⟩ : ∃ (p : Fin 25600) (q : Fin 16), y = ix2 p q := ⟨y 0, y 1, eq_ix2 y⟩
  have hx' : ∀ k : Fin 3, x0 (ix2 k p) = edgeVec pos iS iR (i 0) k := hx
  have h1' : i 1 = q := h1
  rw [out_row, hx' 0, hx' 1, hx' 2, ← h1']
  rfl

/-- The printed index maps, decided over the 125 points: the input window keeps all three rows and moves along the
    columns with the output window's rows; the output window keeps all sixteen columns. -/
theorem idx_facts : ∀ t : Fin cfg0.N, win0_0.index t (0 : Fin 2) = 0
    ∧ win0_0.index t (1 : Fin 2) = win0_1.index t (0 : Fin 2)
    ∧ win0_1.index t (1 : Fin 2) = 0
    ∧ win0_1.index t (0 : Fin 2) ≤ 124 :=
  (by decide +kernel : ∀ t : Fin grid0.N, _)

/-- Every block of rows is some point's. -/
theorem idx_onto : ∀ q0 : Fin 125, ∃ t : Fin cfg0.N, win0_1.index t = ![q0.val, 0] :=
  (by decide +kernel : ∀ q0 : Fin 125, ∃ t : Fin grid0.N, win0_1.index t = ![q0.val, 0])

/-- WHAT POINT `t` WRITES BACK is block `t` of `G` of the arguments. -/
theorem flushed_eq (c : Dev nD) (t : Fin cfg0.N) :
    (dats m 0 c).flushed 1 t = ((cfg0.win 1).blk t).view.read (Elt Ideal) (GK m c) := by
  rw [Value.flushed1]
  obtain ⟨e0, e1, e2, e3⟩ := idx_facts t
  funext y
  show out0_1 (iblk m c 0 t) y = G (posOf m c) (sendIdx (idxOf m c)) (recvIdx (idxOf m c)) (((cfg0.win 1).blk t).view.emb y)
  refine block_at (posOf m c) (sendIdx (idxOf m c)) (recvIdx (idxOf m c)) (iblk m c 0 t) y
    (((cfg0.win 1).blk t).view.emb y) (fun k => ?_) ?_
  · show V m c main_v19 (((cfg0.win 0).blk t).view.emb (ix2 k (y 0))) = _
    have hi : ((cfg0.win 0).blk t).view.emb (ix2 k (y 0)) = ix2 k ((((cfg0.win 1).blk t).view.emb y) 0) := by
      funext a; apply Fin.ext
      match a with
      | ⟨0, _⟩ => show win0_0.index t (0 : Fin 2) * 3 + 1 * k.val = k.val; omega
      | ⟨1, _⟩ =>
        show win0_0.index t (1 : Fin 2) * 25600 + 1 * (y 0).val = win0_1.index t (0 : Fin 2) * 25600 + 1 * (y 0).val
        omega
    rw [hi]
    exact vecT_apply m c k _
  · apply Fin.ext
    show win0_1.index t (1 : Fin 2) * 16 + 1 * (y 1).val = (y 1).val
    omega

/-- An index of the result is in point `t`'s block iff each coordinate is in the block's range on its axis. -/
theorem mem_blk (t : Fin cfg0.N) (i : S3200000x16.Idx) :
    i ∈ ((cfg0.win 1).blk t).view.set ↔ ∀ a : Fin 2, win0_1.index t a * S25600x16.size a ≤ (i a).val
      ∧ (i a).val < win0_1.index t a * S25600x16.size a + S25600x16.size a := by
  show i ∈ ((View.whole main_v20).slice (win0_1.rect t)).set ↔ _
  rw [View.set_slice_whole, Rect.mem_set_unit]
  exact Iff.rfl

/-- The 125 blocks cover the result: row `r` is in the block of the point whose block index is `r / 25600`. -/
theorem cover (i : S3200000x16.Idx) :
    ∃ t : Fin cfg0.N, (cfg0.win 1).flush t = true ∧ i ∈ ((cfg0.win 1).blk t).view.set := by
  have hi0 : (i 0).val < 3200000 := (i 0).isLt
  have hi1 : (i 1).val < 16 := (i 1).isLt
  obtain ⟨t, ht⟩ := idx_onto ⟨(i 0).val / 25600, by omega⟩
  have q0 : win0_1.index t (0 : Fin 2) = (i 0).val / 25600 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 25600 ≤ (i 0).val ∧ (i 0).val < win0_1.index t (0 : Fin 2) * 25600 + 25600
    omega
  | ⟨1, _⟩ =>
    show win0_1.index t (1 : Fin 2) * 16 ≤ (i 1).val ∧ (i 1).val < win0_1.index t (1 : Fin 2) * 16 + 16
    omega

/-- THE RESULT ARRAY after the run is `G` of the arguments. -/
theorem final (c : Dev nD) : (dats m 0 c).arrAt 1 cfg0.N = GK m c :=
  (dats m 0 c).arrAt_eq_of_cover 1 (GK m c) (fun t _ => flushed_eq m c t) cover

/-- THE KERNEL'S RUN: every weakly fair execution terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v20) = GK m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Sh.Kernel

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«162112_j49976239456302_2_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.RefEdges.lean ====
/-
  THE REFERENCE'S EDGE VECTORS. The reference gathers the sender's and the receiver's rows of the position
  table, subtracts them into an `[E, 3]` array of edge vectors, sums each row's squares, takes the root, clamps it
  below at `ε`, divides every component by it, slices the three columns out as vectors, computes the sixteen
  harmonics as vectors over the edges and stacks them as the columns of the `[E, 16]` result. Read at `(e, k)` that is
  harmonic `k` of edge `e`, normalized by division (`shR`); on a table of real positions it is the array `G`.
-/
import proofs.«162112_j49976239456302_2_alg».proof.Proof.Gen.ReferenceIdeal.Run
import proofs.«162112_j49976239456302_2_alg».proof.Proof.ShEdges
import proofs.«162112_j49976239456302_2_alg».proof.Proof.LibRowGatherDims
import Idealize.ShloMosaic.Lib.IdealHost
import Idealize.ShloMosaic.Lib.ValueIdx
import Idealize.ShloMosaic.PureOps.Ideal.Laws

set_option maxRecDepth 16384

noncomputable section

namespace Cert.Sh.Ref

open Idealize.ShloMosaic Idealize.ShloMosaic.ValueIdx Idealize.ShloMosaic.StableHlo
open Cert.ReferenceIdeal Cert.ReferenceIdeal.Gen Cert.ReferenceIdeal.Value Cert.Sh

/-- An index vector as the gather's column of start indices: a negative word has the table's extent added first. -/
def idxCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The senders' column: row 0 of the index argument. -/
def sendIdx (a1 : IVec S2x3200000 32) : IVec S3200000x1 32 :=
  idxCol (shapeCast S3200000 (extractStridedSlice S1x3200000 ![0, 0] a1 slices_S2x3200000_S1x3200000_0_0) shapeCasts_S1x3200000_S3200000)

/-- The receivers' column: row 1 of the index argument. -/
def recvIdx (a1 : IVec S2x3200000 32) : IVec S3200000x1 32 :=
  idxCol (shapeCast S3200000 (extractStridedSlice S1x3200000 ![1, 0] a1 slices_S2x3200000_S1x3200000_1_0) shapeCasts_S1x3200000_S3200000)

variable (V0 : Valuation τ sig (Elt Ideal))

/-- The position table and the index argument as the run finds them. -/
abbrev posOf : S100000x3.Idx → EReal := V0 (Proc.devRef .tc main_arg0)
abbrev idxOf : IVec S2x3200000 32 := V0 (Proc.devRef .tc main_arg1)

/-- The edge vectors: the gathered sender row minus the gathered receiver row. -/
theorem v18_apply (e : Fin 3200000) (c : Fin 3) :
    (res_main_v18 V0 : S3200000x3.Idx → EReal) (ix2 e c)
      = edgeVec (posOf V0) (sendIdx (idxOf V0)) (recvIdx (idxOf V0)) e c := by
  unfold res_main_v18
  rw [subf_apply,
    Cert.Lib.HostIndex.hostGather_rows_apply (by norm_num) _ rfl rfl rfl rfl rfl rfl rfl,
    Cert.Lib.HostIndex.hostGather_rows_apply (by norm_num) _ rfl rfl rfl rfl rfl rfl rfl]
  rfl

end Cert.Sh.Ref

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.RefNorm.lean ====
/-
  THE REFERENCE'S NORMALIZED EDGE VECTORS. Each row of the `[E, 3]` array of edge vectors is divided by its length
  clamped below at `ε`: the squares of the row summed from zero by the host's reduction, the root, the maximum with
  the guard, the column broadcast back along the row. The three columns are then sliced out as vectors over the edges.
-/
import proofs.«162112_j49976239456302_2_alg».proof.Proof.RefEdges
import proofs.«162112_j49976239456302_2_alg».proof.Proof.LibEdgeReads
import Idealize.ShloMosaic.Lib.IdealHost
import Idealize.ShloMosaic.PureOps.Ideal.Laws

set_option maxRecDepth 16384

noncomputable section

namespace Cert.Sh.Ref

open Idealize.ShloMosaic Idealize.ShloMosaic.ValueIdx Idealize.ShloMosaic.StableHlo
open Cert.ReferenceIdeal Cert.ReferenceIdeal.Gen Cert.ReferenceIdeal.Value Cert.Sh Cert.Lib.EdgeReads

variable (V0 : Valuation τ sig (Elt Ideal))

/-- The host's square root at an index is the ideal instance's root of the element. -/
theorem hostSqrt_apply {s : Shape} {φ : FTy} (x : FVec Ideal s φ) (i : s.Idx) : Host.sqrt x i = Ideal.sqrt (x i) := rfl

/-- The normalized edge vectors: each component divided by the clamped length of its row. -/
theorem v26_apply (e : Fin 3200000) (c : Fin 3) :
    (res_main_v26 V0 : S3200000x3.Idx → EReal) (ix2 e c)
      = Ideal.div ((res_main_v18 V0 : S3200000x3.Idx → EReal) (ix2 e c))
          (len ((res_main_v18 V0 : S3200000x3.Idx → EReal) (ix2 e 0)) ((res_main_v18 V0 : S3200000x3.Idx → EReal) (ix2 e 1))
            ((res_main_v18 V0 : S3200000x3.Idx → EReal) (ix2 e 2))) := by
  have hred : S3200000x3.Reduces [1] S3200000 := by decide
  unfold res_main_v26
  rw [hostDivf_apply, column_broadcast_apply, maximumf_apply, hostSqrt_apply,
    column_of_vector_apply, hostReduceAdd_rows3_apply _ _ _ hred,
    show (constant (F := Ideal) S_ .f32 0x00000000#32) (Shape.Idx.first h_S_) = 0 from Ideal.ofBits_zero_f32]
  rfl

/-- The three columns of the normalized edge vectors, as vectors over the edges. -/
theorem v28_apply (e : Fin 3200000) :
    (res_main_v28 V0 : S3200000.Idx → EReal) (ix1 e) = (res_main_v26 V0 : S3200000x3.Idx → EReal) (ix2 e 0) := by
  unfold res_main_v28
  exact column_slice_apply 0 (by norm_num) _ _ _ e
theorem v30_apply (e : Fin 3200000) :
    (res_main_v30 V0 : S3200000.Idx → EReal) (ix1 e) = (res_main_v26 V0 : S3200000x3.Idx → EReal) (ix2 e 1) := by
  unfold res_main_v30
  exact column_slice_apply 1 (by norm_num) _ _ _ e
theorem v32_apply (e : Fin 3200000) :
    (res_main_v32 V0 : S3200000.Idx → EReal) (ix1 e) = (res_main_v26 V0 : S3200000x3.Idx → EReal) (ix2 e 2) := by
  unfold res_main_v32
  exact column_slice_apply 2 (by norm_num) _ _ _ e

end Cert.Sh.Ref

end
-- ==== Proof.RefRows.lean ====
/-
  THE REFERENCE'S RESULT AT AN INDEX, OVER THE NORMALIZED COLUMNS. The sixteen harmonics are computed as vectors over
  the edges from the three normalized component vectors `X`, `Y`, `Z` (`col0` … `col15`: the reference's own
  operations, every one pointwise), each made an `[E, 1]` column, and the sixteen columns are concatenated along the
  second axis. At `(e, k)` the result is column `k` at `(e, 0)`, the `k`-th vector at `e`: harmonic `k` of
  `(X e, Y e, Z e)`. The lemma is stated over any three vectors; the reference's are the three sliced columns.
-/
import proofs.«162112_j49976239456302_2_alg».proof.Proof.RefEdges
import proofs.«162112_j49976239456302_2_alg».proof.Proof.LibEdgeReads
import proofs.«162112_j49976239456302_2_alg».proof.Proof.LibConcat16

set_option maxRecDepth 16384

noncomputable section

namespace Cert.Sh.Ref

open Idealize.ShloMosaic Idealize.ShloMosaic.ValueIdx Idealize.ShloMosaic.StableHlo
open Cert.ReferenceIdeal Cert.ReferenceIdeal.Gen Cert.ReferenceIdeal.Value Cert.Sh Cert.Lib.EdgeReads Cert.Lib.Concat

/-! ## The sixteen harmonics as vectors over the edges -/

def col0 (X Y Z : FVec Ideal S3200000 .f32) : FVec Ideal S3200000 .f32 :=
  (broadcastInDim S3200000 ![] bcast_S_S3200000 (constant (F := Ideal) S_ .f32 0x3F800000#32))
def col1 (X Y Z : FVec Ideal S3200000 .f32) : FVec Ideal S3200000 .f32 :=
  (mulf (broadcastInDim S3200000 ![] bcast_S_S3200000 (constant (F := Ideal) S_ .f32 0x3FDDB3D7#32)) X)
def col2 (X Y Z : FVec Ideal S3200000 .f32) : FVec Ideal S3200000 .f32 :=
  (mulf (broadcastInDim S3200000 ![] bcast_S_S3200000 (constant (F := Ideal) S_ .f32 0x3FDDB3D7#32)) Y)
def col3 (X Y Z : FVec Ideal S3200000 .f32) : FVec Ideal S3200000 .f32 :=
  (mulf (broadcastInDim S3200000 ![] bcast_S_S3200000 (constant (F := Ideal) S_ .f32 0x3FDDB3D7#32)) Z)
def col4 (X Y Z : FVec Ideal S3200000 .f32) : FVec Ideal S3200000 .f32 :=
  (mulf (broadcastInDim S3200000 ![] bcast_S_S3200000 (constant (F := Ideal) S_ .f32 0x400F1BBD#32)) (mulf (mulf (broadcastInDim S3200000 ![] bcast_S_S3200000 (constant (F := Ideal) S_ .f32 0x3FDDB3D7#32)) X) Z))
def col5 (X Y Z : FVec Ideal S3200000 .f32) : FVec Ideal S3200000 .f32 :=
  (mulf (broadcastInDim S3200000 ![] bcast_S_S3200000 (constant (F := Ideal) S_ .f32 0x400F1BBD#32)) (mulf (mulf (broadcastInDim S3200000 ![] bcast_S_S3200000 (constant (F := Ideal) S_ .f32 0x3FDDB3D7#32)) X) Y))
def col6 (X Y Z : FVec Ideal S3200000 .f32) : FVec Ideal S3200000 .f32 :=
  (mulf (broadcastInDim S3200000 ![] bcast_S_S3200000 (constant (F := Ideal) S_ .f32 0x400F1BBD#32)) (subf (mulf Y Y) (mulf (broadcastInDim S3200000 ![] bcast_S_S3200000 (constant (F := Ideal) S_ .f32 0x3F000000#32)) (addf (mulf X X) (mulf Z Z)))))
def col7 (X Y Z : FVec Ideal S3200000 .f32) : FVec Ideal S3200000 .f32 :=
  (mulf (broadcastInDim S3200000 ![] bcast_S_S3200000 (constant (F := Ideal) S_ .f32 0x400F1BBD#32)) (mulf (mulf (broadcastInDim S3200000 ![] bcast_S_S3200000 (constant (F := Ideal) S_ .f32 0x3FDDB3D7#32)) Y) Z))
def col8 (X Y Z : FVec Ideal S3200000 .f32) : FVec Ideal S3200000 .f32 :=
  (mulf (broadcastInDim S3200000 ![] bcast_S_S3200000 (constant (F := Ideal) S_ .f32 0x400F1BBD#32)) (mulf (broadcastInDim S3200000 ![] bcast_S_S3200000 (constant (F := Ideal) S_ .f32 0x3F5DB3D7#32)) (subf (mulf Z Z) (mulf X X))))
def col9 (X Y Z : FVec Ideal S3200000 .f32) : FVec Ideal S3200000 .f32 :=
  (mulf (broadcastInDim S3200000 ![] bcast_S_S3200000 (constant (F := Ideal) S_ .f32 0x402953FD#32)) (mulf (broadcastInDim S3200000 ![] bcast_S_S3200000 (constant (F := Ideal) S_ .f32 0x3F69B1E9#32)) (addf (mulf (mulf (mulf (broadcastInDim S3200000 ![] bcast_S_S3200000 (constant (F := Ideal) S_ .f32 0x3FDDB3D7#32)) X) Z) Z) (mulf (mulf (broadcastInDim S3200000 ![] bcast_S_S3200000 (constant (F := Ideal) S_ .f32 0x3F5DB3D7#32)) (subf (mulf Z Z) (mulf X X))) X))))
def col10 (X Y Z : FVec Ideal S3200000 .f32) : FVec Ideal S3200000 .f32 :=
  (mulf (broadcastInDim S3200000 ![] bcast_S_S3200000 (constant (F := Ideal) S_ .f32 0x402953FD#32)) (mulf (mulf (broadcastInDim S3200000 ![] bcast_S_S3200000 (constant (F := Ideal) S_ .f32 0x400F1BBD#32)) (mulf (mulf (broadcastInDim S3200000 ![] bcast_S_S3200000 (constant (F := Ideal) S_ .f32 0x3FDDB3D7#32)) X) Z)) Y))
def col11 (X Y Z : FVec Ideal S3200000 .f32) : FVec Ideal S3200000 .f32 :=
  (mulf (broadcastInDim S3200000 ![] bcast_S_S3200000 (constant (F := Ideal) S_ .f32 0x402953FD#32)) (mulf (mulf (broadcastInDim S3200000 ![] bcast_S_S3200000 (constant (F := Ideal) S_ .f32 0x3F1CC471#32)) (subf (mulf (broadcastInDim S3200000 ![] bcast_S_S3200000 (constant (F := Ideal) S_ .f32 0x40800000#32)) (mulf Y Y)) (addf (mulf X X) (mulf Z Z)))) X))
def col12 (X Y Z : FVec Ideal S3200000 .f32) : FVec Ideal S3200000 .f32 :=
  (mulf (broadcastInDim S3200000 ![] bcast_S_S3200000 (constant (F := Ideal) S_ .f32 0x402953FD#32)) (mulf (mulf (broadcastInDim S3200000 ![] bcast_S_S3200000 (constant (F := Ideal) S_ .f32 0x3F000000#32)) Y) (subf (mulf (broadcastInDim S3200000 ![] bcast_S_S3200000 (constant (F := Ideal) S_ .f32 0x40000000#32)) (mulf Y Y)) (mulf (broadcastInDim S3200000 ![] bcast_S_S3200000 (constant (F := Ideal) S_ .f32 0x40400000#32)) (addf (mulf X X) (mulf Z Z))))))
def col13 (X Y Z : FVec Ideal S3200000 .f32) : FVec Ideal S3200000 .f32 :=
  (mulf (broadcastInDim S3200000 ![] bcast_S_S3200000 (constant (F := Ideal) S_ .f32 0x402953FD#32)) (mulf (mulf (broadcastInDim S3200000 ![] bcast_S_S3200000 (constant (F := Ideal) S_ .f32 0x3F1CC471#32)) Z) (subf (mulf (broadcastInDim S3200000 ![] bcast_S_S3200000 (constant (F := Ideal) S_ .f32 0x40800000#32)) (mulf Y Y)) (addf (mulf X X) (mulf Z Z)))))
def col14 (X Y Z : FVec Ideal S3200000 .f32) : FVec Ideal S3200000 .f32 :=
  (mulf (broadcastInDim S3200000 ![] bcast_S_S3200000 (constant (F := Ideal) S_ .f32 0x402953FD#32)) (mulf (mulf (broadcastInDim S3200000 ![] bcast_S_S3200000 (constant (F := Ideal) S_ .f32 0x400F1BBD#32)) (mulf (broadcastInDim S3200000 ![] bcast_S_S3200000 (constant (F := Ideal) S_ .f32 0x3F5DB3D7#32)) (subf (mulf Z Z) (mulf X X)))) Y))
def col15 (X Y Z : FVec Ideal S3200000 .f32) : FVec Ideal S3200000 .f32 :=
  (mulf (broadcastInDim S3200000 ![] bcast_S_S3200000 (constant (F := Ideal) S_ .f32 0x402953FD#32)) (mulf (broadcastInDim S3200000 ![] bcast_S_S3200000 (constant (F := Ideal) S_ .f32 0x3F69B1E9#32)) (subf (mulf (mulf (broadcastInDim S3200000 ![] bcast_S_S3200000 (constant (F := Ideal) S_ .f32 0x3F5DB3D7#32)) (subf (mulf Z Z) (mulf X X))) Z) (mulf (mulf (mulf (broadcastInDim S3200000 ![] bcast_S_S3200000 (constant (F := Ideal) S_ .f32 0x3FDDB3D7#32)) X) Z) X))))

/-- THE STACK OF THE SIXTEEN COLUMNS AT `(e, k)`: harmonic `k` of `(X e, Y e, Z e)`. -/
theorem cols_apply (X Y Z : FVec Ideal S3200000 .f32) (e : Fin 3200000) (k : Fin 16) :
    concatenate S3200000x16 1
      [⟨S3200000x1, broadcastInDim S3200000x1 ![0] bcast_S3200000_S3200000x1_0 (col0 X Y Z)⟩,
      ⟨S3200000x1, broadcastInDim S3200000x1 ![0] bcast_S3200000_S3200000x1_0 (col1 X Y Z)⟩,
      ⟨S3200000x1, broadcastInDim S3200000x1 ![0] bcast_S3200000_S3200000x1_0 (col2 X Y Z)⟩,
      ⟨S3200000x1, broadcastInDim S3200000x1 ![0] bcast_S3200000_S3200000x1_0 (col3 X Y Z)⟩,
      ⟨S3200000x1, broadcastInDim S3200000x1 ![0] bcast_S3200000_S3200000x1_0 (col4 X Y Z)⟩,
      ⟨S3200000x1, broadcastInDim S3200000x1 ![0] bcast_S3200000_S3200000x1_0 (col5 X Y Z)⟩,
      ⟨S3200000x1, broadcastInDim S3200000x1 ![0] bcast_S3200000_S3200000x1_0 (col6 X Y Z)⟩,
      ⟨S3200000x1, broadcastInDim S3200000x1 ![0] bcast_S3200000_S3200000x1_0 (col7 X Y Z)⟩,
      ⟨S3200000x1, broadcastInDim S3200000x1 ![0] bcast_S3200000_S3200000x1_0 (col8 X Y Z)⟩,
      ⟨S3200000x1, broadcastInDim S3200000x1 ![0] bcast_S3200000_S3200000x1_0 (col9 X Y Z)⟩,
      ⟨S3200000x1, broadcastInDim S3200000x1 ![0] bcast_S3200000_S3200000x1_0 (col10 X Y Z)⟩,
      ⟨S3200000x1, broadcastInDim S3200000x1 ![0] bcast_S3200000_S3200000x1_0 (col11 X Y Z)⟩,
      ⟨S3200000x1, broadcastInDim S3200000x1 ![0] bcast_S3200000_S3200000x1_0 (col12 X Y Z)⟩,
      ⟨S3200000x1, broadcastInDim S3200000x1 ![0] bcast_S3200000_S3200000x1_0 (col13 X Y Z)⟩,
      ⟨S3200000x1, broadcastInDim S3200000x1 ![0] bcast_S3200000_S3200000x1_0 (col14 X Y Z)⟩,
      ⟨S3200000x1, broadcastInDim S3200000x1 ![0] bcast_S3200000_S3200000x1_0 (col15 X Y Z)⟩]
      concatenates_S3200000x1_S3200000x1_S3200000x1_S3200000x1_S3200000x1_S3200000x1_S3200000x1_S3200000x1_S3200000x1_S3200000x1_S3200000x1_S3200000x1_S3200000x1_S3200000x1_S3200000x1_S3200000x1_S3200000x16_d1 (ix2 e k)
      = feat (X (ix1 e)) (Y (ix1 e)) (Z (ix1 e)) k := by
  refine (concatenate16_unit_apply (t := S3200000x16) (s₁ := S3200000x1) (1 : Fin 2) _ _ _ _ _ _ _ _ _ _ _ _ _ _ _ _ _ rfl rfl (ix2 e k) k rfl
    (ix2 e (0 : Fin 1)) (fun b hb => by
      match b with
      | ⟨0, _⟩ => rfl
      | ⟨1, _⟩ => exact absurd rfl hb)).trans ?_
  match k with
  | ⟨0, _⟩ => exact (column_of_vector_apply (col0 X Y Z) bcast_S3200000_S3200000x1_0 e (0 : Fin 1)).trans rfl
  | ⟨1, _⟩ => exact (column_of_vector_apply (col1 X Y Z) bcast_S3200000_S3200000x1_0 e (0 : Fin 1)).trans rfl
  | ⟨2, _⟩ => exact (column_of_vector_apply (col2 X Y Z) bcast_S3200000_S3200000x1_0 e (0 : Fin 1)).trans rfl
  | ⟨3, _⟩ => exact (column_of_vector_apply (col3 X Y Z) bcast_S3200000_S3200000x1_0 e (0 : Fin 1)).trans rfl
  | ⟨4, _⟩ => exact (column_of_vector_apply (col4 X Y Z) bcast_S3200000_S3200000x1_0 e (0 : Fin 1)).trans rfl
  | ⟨5, _⟩ => exact (column_of_vector_apply (col5 X Y Z) bcast_S3200000_S3200000x1_0 e (0 : Fin 1)).trans rfl
  | ⟨6, _⟩ => exact (column_of_vector_apply (col6 X Y Z) bcast_S3200000_S3200000x1_0 e (0 : Fin 1)).trans rfl
  | ⟨7, _⟩ => exact (column_of_vector_apply (col7 X Y Z) bcast_S3200000_S3200000x1_0 e (0 : Fin 1)).trans rfl
  | ⟨8, _⟩ => exact (column_of_vector_apply (col8 X Y Z) bcast_S3200000_S3200000x1_0 e (0 : Fin 1)).trans rfl
  | ⟨9, _⟩ => exact (column_of_vector_apply (col9 X Y Z) bcast_S3200000_S3200000x1_0 e (0 : Fin 1)).trans rfl
  | ⟨10, _⟩ => exact (column_of_vector_apply (col10 X Y Z) bcast_S3200000_S3200000x1_0 e (0 : Fin 1)).trans rfl
  | ⟨11, _⟩ => exact (column_of_vector_apply (col11 X Y Z) bcast_S3200000_S3200000x1_0 e (0 : Fin 1)).trans rfl
  | ⟨12, _⟩ => exact (column_of_vector_apply (col12 X Y Z) bcast_S3200000_S3200000x1_0 e (0 : Fin 1)).trans rfl
  | ⟨13, _⟩ => exact (column_of_vector_apply (col13 X Y Z) bcast_S3200000_S3200000x1_0 e (0 : Fin 1)).trans rfl
  | ⟨14, _⟩ => exact (column_of_vector_apply (col14 X Y Z) bcast_S3200000_S3200000x1_0 e (0 : Fin 1)).trans rfl
  | ⟨15, _⟩ => exact (column_of_vector_apply (col15 X Y Z) bcast_S3200000_S3200000x1_0 e (0 : Fin 1)).trans rfl
  | ⟨n + 16, h⟩ => exact absurd h (by omega)

variable (V0 : Valuation τ sig (Elt Ideal))

/-- THE RESULT AT `(e, k)`: harmonic `k` of the normalized vector of edge `e`. -/
theorem out_row (e : Fin 3200000) (k : Fin 16) :
    (res_out0 V0 : S3200000x16.Idx → EReal) (ix2 e k)
      = feat ((res_main_v28 V0 : S3200000.Idx → EReal) (ix1 e)) ((res_main_v30 V0 : S3200000.Idx → EReal) (ix1 e))
          ((res_main_v32 V0 : S3200000.Idx → EReal) (ix1 e)) k := by
  show (res_main_v137 V0 : S3200000x16.Idx → EReal) (ix2 e k) = _
  unfold res_main_v137 res_main_v36 res_main_v40 res_main_v43 res_main_v54
  exact cols_apply (res_main_v28 V0) (res_main_v30 V0) (res_main_v32 V0) e k

end Cert.Sh.Ref

end
-- ==== Proof.RefArray.lean ====
/-
  THE REFERENCE'S RESULT ARRAY. At `(e, k)` the reference's result is harmonic `k` of the vector of edge `e` divided
  by its clamped length. Where the position table holds reals every edge vector is a real vector (a difference of two
  reals), on which dividing by the clamped length is scaling by the inverse root of the clamped squared length: the
  result array is `G` of the arguments.
-/
import proofs.«162112_j49976239456302_2_alg».proof.Proof.RefNorm
import proofs.«162112_j49976239456302_2_alg».proof.Proof.RefRows

set_option maxRecDepth 16384

noncomputable section

namespace Cert.Sh.Ref

open Idealize.ShloMosaic Idealize.ShloMosaic.ValueIdx Idealize.ShloMosaic.StableHlo
open Cert.ReferenceIdeal Cert.ReferenceIdeal.Gen Cert.ReferenceIdeal.Value Cert.Sh

/-- Over a table of reals every component of every edge vector is a real. -/
theorem edgeVec_real (pos : S100000x3.Idx → EReal) (iS iR : IVec S3200000x1 32)
    (hfin : ∀ i, ∃ r : ℝ, pos i = (r : EReal)) (e : Fin 3200000) (c : Fin 3) :
    ∃ r : ℝ, edgeVec pos iS iR e c = (r : EReal) := by
  obtain ⟨r1, h1⟩ := hfin (ix2 (node (iS (ix2 e 0))) c)
  obtain ⟨r2, h2⟩ := hfin (ix2 (node (iR (ix2 e 0))) c)
  refine ⟨r1 - r2, ?_⟩
  unfold edgeVec
  rw [h1, h2]
  exact (EReal.coe_sub r1 r2).symm

variable (V0 : Valuation τ sig (Elt Ideal))

/-- THE REFERENCE'S RESULT IS `G`, where the position table holds reals. -/
theorem out_eq (hfin : ∀ i, ∃ r : ℝ, posOf V0 i = (r : EReal)) :
    (res_out0 V0 : S3200000x16.Idx → EReal) = G (posOf V0) (sendIdx (idxOf V0)) (recvIdx (idxOf V0)) := by
  funext i
  obtain ⟨e, k, rfl⟩ : ∃ (e : Fin 3200000) (k : Fin 16), i = ix2 e k := ⟨i 0, i 1, eq_ix2 i⟩
  rw [out_row, v28_apply, v30_apply, v32_apply, v26_apply, v26_apply, v26_apply, v18_apply, v18_apply, v18_apply]
  obtain ⟨a, ha⟩ := edgeVec_real (posOf V0) (sendIdx (idxOf V0)) (recvIdx (idxOf V0)) hfin e 0
  obtain ⟨b, hb⟩ := edgeVec_real (posOf V0) (sendIdx (idxOf V0)) (recvIdx (idxOf V0)) hfin e 1
  obtain ⟨c, hc⟩ := edgeVec_real (posOf V0) (sendIdx (idxOf V0)) (recvIdx (idxOf V0)) hfin e 2
  show shR (edgeVec (posOf V0) (sendIdx (idxOf V0)) (recvIdx (idxOf V0)) e 0)
      (edgeVec (posOf V0) (sendIdx (idxOf V0)) (recvIdx (idxOf V0)) e 1)
      (edgeVec (posOf V0) (sendIdx (idxOf V0)) (recvIdx (idxOf V0)) e 2) k
    = shK (edgeVec (posOf V0) (sendIdx (idxOf V0)) (recvIdx (idxOf V0)) e 0)
      (edgeVec (posOf V0) (sendIdx (idxOf V0)) (recvIdx (idxOf V0)) e 1)
      (edgeVec (posOf V0) (sendIdx (idxOf V0)) (recvIdx (idxOf V0)) e 2) k
  rw [ha, hb, hc]
  exact shR_eq_shK a b c k

end Cert.Sh.Ref

end
-- ==== Proof.FiniteInputs.lean ====
/-
  THE PRECONDITION READ BACK. The precondition is `jnp.all(|pos| < +∞)`: a reduction by `and`, from 1, of the
  one-bit array whose entry at `i` compares `max(pos i, −pos i)` with the word of `+∞`. That it is 1 says every entry
  of the comparison is 1; and an extended real whose absolute value is below `⊤` is neither `⊤` nor `⊥`: it is a
  real.
-/
import proofs.«162112_j49976239456302_2_alg».proof.Pre_finite_inputs
import proofs.«162112_j49976239456302_2_alg».proof.Proof.Gen.Pre_finite_inputs
import Idealize.ShloMosaic.Lib.ReduceAll
import Idealize.ShloMosaic.Lib.ValueIdx
import Idealize.ShloMosaic.PureOps.Ideal

noncomputable section

namespace Cert.Sh.Finite

open Idealize.ShloMosaic Cert.Pre_finite_inputs Cert.Pre_finite_inputs.Gen

/-- The rank-zero shape has one index. -/
instance : Subsingleton S_.Idx := ⟨fun a b => funext fun d => d.elim0⟩

/-- An extended real whose absolute value compares below the word of `+∞` is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Under the precondition every entry of the position table is a real. -/
theorem real_of_pre (pos : FVec Ideal S100000x3 .f32) (idx : IVec S2x3200000 32)
    (h : Cert.Pre_finite_inputs.fn (F := Ideal) pos idx = fun _ => 1#1) (i : S100000x3.Idx) :
    ∃ r : ℝ, pos i = (r : EReal) := by
  have h0 := congrFun h ValueIdx.ix0
  dsimp only [Cert.Pre_finite_inputs.fn] at h0
  exact real_of_abs_lt_inf (pos i) (Host.reduce_andi_all _ _ _ _ _ h0 i)

end Cert.Sh.Finite

end
-- ==== Proof.lean ====
/- The proof of `Cert.Claim` (proofs.«162112_j49976239456302_2_alg».proof.Defs).

   Both programs compute, for every edge of a graph, the sixteen real spherical harmonics of degree 0 to 3 of the
   direction of the edge vector `pos[sender] − pos[receiver]`, in component normalization. The direction is the edge
   vector over its length guarded below at `ε`; the kernel scales by the inverse square root of the squared length
   guarded at `ε²` (its guard constant is named that value), the reference divides by the root of the squared length
   guarded at `ε`. On real positions these are one function (`Cert.Sh.shR_eq_shK`); after the normalization the two
   programs compute the same polynomial in the same association.

   The kernel gathers columns of the transposed position table and computes 25600 edges per grid point, storing the
   transpose of a stack of sixteen rows; its result array after the run is `Cert.Sh.G` of the arguments
   (`Cert.Sh.Kernel.run`). The reference gathers rows and stacks sixteen columns; its result is `Cert.Sh.G` of the
   arguments where the positions are real (`Cert.Sh.Ref.out_eq`), which the precondition states
   (`Cert.Sh.Finite.real_of_pre`). The two programs wrap and clamp an index word in the same way, so they name the same
   nodes. The frames are the generated ones; the one rewrite of the ideal pass is the named guard. -/
import proofs.«162112_j49976239456302_2_alg».proof.Defs
import proofs.«162112_j49976239456302_2_alg».proof.Proof.Gen.Kernel
import proofs.«162112_j49976239456302_2_alg».proof.Proof.Gen.Kernel.Skeleton
import proofs.«162112_j49976239456302_2_alg».proof.Proof.Gen.Kernel.Launch
import proofs.«162112_j49976239456302_2_alg».proof.Proof.Gen.Kernel.Points
import proofs.«162112_j49976239456302_2_alg».proof.Proof.Gen.Kernel.Frame
import proofs.«162112_j49976239456302_2_alg».proof.Proof.Gen.KernelIdeal
import proofs.«162112_j49976239456302_2_alg».proof.Proof.Gen.KernelIdeal.Skeleton
import proofs.«162112_j49976239456302_2_alg».proof.Proof.Gen.KernelIdeal.Launch
import proofs.«162112_j49976239456302_2_alg».proof.Proof.Gen.KernelIdeal.Points
import proofs.«162112_j49976239456302_2_alg».proof.Proof.Gen.KernelIdeal.Frame
import proofs.«162112_j49976239456302_2_alg».proof.Proof.Gen.ReferenceIdeal
import proofs.«162112_j49976239456302_2_alg».proof.Proof.Gen.Pre_finite_inputs
import proofs.«162112_j49976239456302_2_alg».proof.Proof.Gen.KernelIdeal.Value
import proofs.«162112_j49976239456302_2_alg».proof.Proof.Gen.ReferenceIdeal.Run
import proofs.«162112_j49976239456302_2_alg».proof.Proof.KernelValue
import proofs.«162112_j49976239456302_2_alg».proof.Proof.RefArray
import proofs.«162112_j49976239456302_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass's one rewrite: the kernel's guard constant is named `ε²`, the square of the reference's `ε`. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- The two programs' index columns are one function of the index argument. -/
theorem sendIdx_eq (a1 : IVec Cert.KernelIdeal.S2x3200000 32) : Cert.Sh.Ref.sendIdx a1 = Cert.Sh.Kernel.sendIdx a1 := rfl
theorem recvIdx_eq (a1 : IVec Cert.KernelIdeal.S2x3200000 32) : Cert.Sh.Ref.recvIdx a1 = Cert.Sh.Kernel.recvIdx a1 := rfl

/-- From arguments that agree and real positions, both programs end with the array `G` of the arguments. -/
theorem algebraic : Cert.algebraic_KernelIdeal_ReferenceIdeal := by
  intro m ρ m' ρ' hpre hagree
  refine ⟨fun c => Cert.Sh.Kernel.GK m c, Cert.Sh.Kernel.run m ρ, ?_⟩
  refine (θ_run Cert.ReferenceIdeal.defs _ _).mono (fun _ h c => ⟨(h c).1.trans ?_, (h c).2⟩)
    (Cert.ReferenceIdeal.Value.run (F := Ideal) m' ρ')
  have h0 : Cert.Sh.Ref.posOf (launchContents m' c) = Cert.Sh.Kernel.posOf m c := (hagree c).1
  have h1 : Cert.Sh.Ref.idxOf (launchContents m' c) = Cert.Sh.Kernel.idxOf m c := (hagree c).2
  have hfin : ∀ i, ∃ r : ℝ, Cert.Sh.Ref.posOf (launchContents m' c) i = (r : EReal) := by
    intro i
    rw [h0]
    exact Cert.Sh.Finite.real_of_pre _ _ (hpre c) i
  refine (Cert.Sh.Ref.out_eq (launchContents m' c) hfin).trans ?_
  rw [h0, h1, sendIdx_eq, recvIdx_eq]

end Cert.Proof

theorem Cert.Proof.claim : Cert.Claim := ⟨Cert.Kernel.Gen.facts, Cert.KernelIdeal.Gen.facts, Cert.ReferenceIdeal.Gen.facts, Cert.Pre_finite_inputs.Gen.facts,
  Cert.Proof.frame_kernel, Cert.Proof.frame_kernelIdeal, Cert.Proof.frame_referenceIdeal, Cert.Proof.preserves, Cert.Proof.algebraic⟩

end
